-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x128 : Shape := ⟨2, ![32768, 128]⟩
abbrev S1000x128 : Shape := ⟨2, ![1000, 128]⟩
abbrev S32768 : Shape := ⟨1, ![32768]⟩
abbrev S_ : Shape := ⟨0, ![]⟩

class Facts : Prop where
  bcast_S_S32768x128 : S_.BroadcastsInDim S32768x128 (![] : Fin 0 → Fin S32768x128.rank)
  reducesTo_S32768x128_S_d0_1 : S32768x128.ReducesTo [0, 1] S_
  h_S_ : 0 < S_.numel
  bcast_S_S1000x128 : S_.BroadcastsInDim S1000x128 (![] : Fin 0 → Fin S1000x128.rank)
  reducesTo_S1000x128_S_d0_1 : S1000x128.ReducesTo [0, 1] S_

variable [Facts]

def fn {F : FTy → Type} [FloatOps F] (main_arg0 : FVec F S32768x128 .f32) (main_arg1 : FVec F S1000x128 .f32) (main_arg2 : IVec S32768 32) : IVec S_ 1 :=
  let main_v0 : FVec F S32768x128 .f32 := Host.absf main_arg0
  let main_cst : FVec F S_ .f32 := constant S_ .f32 0x7F800000#32
  let main_v1 : FVec F S32768x128 .f32 := broadcastInDim S32768x128 ![] bcast_S_S32768x128 main_cst
  let main_v2 : IVec S32768x128 1 := cmpf .olt main_v0 main_v1
  let main_c : IVec S_ 1 := constantI S_ 1 1#1
  let main_v3 : IVec S_ 1 := (fun x v => Host.reduce IntOp.andi x v reducesTo_S32768x128_S_d0_1 h_S_) main_v2 main_c
  let main_v4 : FVec F S1000x128 .f32 := Host.absf main_arg1
  let main_cst_0 : FVec F S_ .f32 := constant S_ .f32 0x7F800000#32
  let main_v5 : FVec F S1000x128 .f32 := broadcastInDim S1000x128 ![] bcast_S_S1000x128 main_cst_0
  let main_v6 : IVec S1000x128 1 := cmpf .olt main_v4 main_v5
  let main_c_1 : IVec S_ 1 := constantI S_ 1 1#1
  let main_v7 : IVec S_ 1 := (fun x v => Host.reduce IntOp.andi x v reducesTo_S1000x128_S_d0_1 h_S_) main_v6 main_c_1
  let main_v8 : IVec S_ 1 := andi main_v3 main_v7
  main_v8
-- ==== Kernel.lean ====
abbrev S32768x128 : Shape := ⟨2, ![32768, 128]⟩
abbrev S1000x128 : Shape := ⟨2, ![1000, 128]⟩
abbrev S32768 : Shape := ⟨1, ![32768]⟩
abbrev S32768x1 : Shape := ⟨2, ![32768, 1]⟩
abbrev S1x1 : Shape := ⟨2, ![1, 1]⟩
abbrev S1024x128 : Shape := ⟨2, ![1024, 128]⟩
abbrev S1024x1 : Shape := ⟨2, ![1024, 1]⟩
abbrev S1024 : Shape := ⟨1, ![1024]⟩
abbrev S1000 : Shape := ⟨1, ![1000]⟩
abbrev S1000x1 : Shape := ⟨2, ![1000, 1]⟩
abbrev S128x1000 : Shape := ⟨2, ![128, 1000]⟩
abbrev S1024x1000 : Shape := ⟨2, ![1024, 1000]⟩
abbrev S1 : Shape := ⟨1, ![1]⟩
abbrev S_ : Shape := ⟨0, ![]⟩

abbrev nBuf : Space → Nat
  | .hbm => 6
  | .vmem => 7
  | .smem => 0
  | _ => 0

abbrev bufTy : (tb : Table) → Fin (tcTables nBuf tb) → BufTy
  | .hbm, ⟨0, _⟩ => ⟨S32768x128, .f32⟩
  | .hbm, ⟨1, _⟩ => ⟨S1000x128, .f32⟩
  | .hbm, ⟨2, _⟩ => ⟨S32768, .i32⟩
  | .hbm, ⟨3, _⟩ => ⟨S32768x1, .i32⟩
  | .hbm, ⟨4, _⟩ => ⟨S1x1, .f32⟩
  | .hbm, ⟨5, _⟩ => ⟨S_, .f32⟩
  | .local _ .vmem, ⟨0, _⟩ => ⟨S1024x128, .f32⟩
  | .local _ .vmem, ⟨1, _⟩ => ⟨S1024x128, .f32⟩
  | .local _ .vmem, ⟨2, _⟩ => ⟨S1000x128, .f32⟩
  | .local _ .vmem, ⟨3, _⟩ => ⟨S1024x1, .i32⟩
  | .local _ .vmem, ⟨4, _⟩ => ⟨S1024x1, .i32⟩
  | .local _ .vmem, ⟨5, _⟩ => ⟨S1x1, .f32⟩
  | .local _ .vmem, ⟨6, _⟩ => ⟨S1x1, .f32⟩
  | _, _ => ⟨S32768x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v49 : BitVec 1 := Scalar.cmpi .eq arg0 c31_i32
  let v50 : BitVec 32 := Scalar.extui v49
  let c0_i32_21 : BitVec 32 := 0#32
  let v51 : BitVec 1 := Scalar.cmpi .ne v50 c0_i32_21
  v51

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  shapeCasts_S32768_S32768x1 : S32768.ShapeCasts S32768x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1024x128_S1024x128_0_0 : ∀ a, (![0, 0] : Fin 2 → Nat) a + S1024x128.size a ≤ S1024x128.size a
  h_S1024x128 : 0 < S1024x128.numel
  inb_S1000x128_S1000x128_0_0 : ∀ a, (![0, 0] : Fin 2 → Nat) a + S1000x128.size a ≤ S1000x128.size a
  h_S1000x128 : 0 < S1000x128.numel
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  reduces_S1024x128_S1024 : S1024x128.Reduces [1] S1024
  shapeCasts_S1024_S1024x1 : S1024.ShapeCasts S1024x1
  broadcasts_S1024x1_S1024x128 : S1024x1.Broadcasts S1024x128
  reduces_S1000x128_S1000 : S1000x128.Reduces [1] S1000
  shapeCasts_S1000_S1000x1 : S1000.ShapeCasts S1000x1
  broadcasts_S1000x1_S1000x128 : S1000x1.Broadcasts S1000x128
  transposes_S1000x128_p1_0_S128x1000 : S1000x128.Transposes [1, 0] S128x1000
  iota_S1024x1000_d1_w32 : S1024x1000.Iotas .tc 32 [1]
  broadcasts_S1024x1_S1024x1000 : S1024x1.Broadcasts S1024x1000
  reduces_S1024x1000_S1024 : S1024x1000.Reduces [1] S1024
  reduces_S1024x1_S1 : S1024x1.Reduces [0] S1
  shapeCasts_S1_S1x1 : S1.ShapeCasts S1x1
  shapeCasts_S1x1_S_ : S1x1.ShapeCasts S_
  dot_S1024x128_S128x1000_S1024x1000_1_0_0_1_n_n_wf : DotDims.WF S1024x128 S128x1000 S1024x1000 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S32768x128.size a
  hwx0_0 : ∀ i : grid0.Coords, EltTy.bits .f32 = 32 ∨ (Rect.block (s := S32768x128) S1024x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1000x128.size a ≤ S1000x128.size a
  hwx0_1 : ∀ i : grid0.Coords, EltTy.bits .f32 = 32 ∨ (Rect.block (s := S1000x128) S1000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S32768x1.size a
  hwx0_2 : ∀ i : grid0.Coords, EltTy.bits .i32 = 32 ∨ (Rect.block (s := S32768x1) S1024x1.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)

variable [Facts₀]

def dot_S1024x128_S128x1000_S1024x1000_1_0_0_1_n_n : DotDims S1024x128 S128x1000 S1024x1000 where
  lhsContracting := [1]
  rhsContracting := [0]
  lhsNonContracting := [0]
  rhsNonContracting := [1]
  lhsBatch := []
  rhsBatch := []
  wf := dot_S1024x128_S128x1000_S1024x1000_1_0_0_1_n_n_wf

abbrev win0_0 : Pipeline.Window sig grid0 :=
  Pipeline.Window.ofSpec (Memref.whole main_arg0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S32768x128 : Shape := ⟨2, ![32768, 128]⟩
abbrev S1000x128 : Shape := ⟨2, ![1000, 128]⟩
abbrev S32768 : Shape := ⟨1, ![32768]⟩
abbrev S_ : Shape := ⟨0, ![]⟩
abbrev S32768x1 : Shape := ⟨2, ![32768, 1]⟩
abbrev S1000 : Shape := ⟨1, ![1000]⟩
abbrev S1000x1 : Shape := ⟨2, ![1000, 1]⟩
abbrev S32768x1000 : Shape := ⟨2, ![32768, 1000]⟩
abbrev S1x1000 : Shape := ⟨2, ![1, 1000]⟩

abbrev nBuf : Space → Nat
  | .hbm => 53
  | .vmem => 0
  | .smem => 0
  | _ => 0

abbrev bufTy : (tb : Table) → Fin (tcTables nBuf tb) → BufTy
  | .hbm, ⟨0, _⟩ => ⟨S32768x128, .f32⟩
  | .hbm, ⟨1, _⟩ => ⟨S1000x128, .f32⟩
  | .hbm, ⟨2, _⟩ => ⟨S32768, .i32⟩
  | .hbm, ⟨3, _⟩ => ⟨S32768x128, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S32768x1, .f32⟩
  | .hbm, ⟨8, _⟩ => ⟨S_, .f32⟩
  | .hbm, ⟨9, _⟩ => ⟨S32768x1, .f32⟩
  | .hbm, ⟨10, _⟩ => ⟨S32768x1, .f32⟩
  | .hbm, ⟨11, _⟩ => ⟨S1000x128, .f32⟩
  | .hbm, ⟨12, _⟩ => ⟨S_, .f32⟩
  | .hbm, ⟨13, _⟩ => ⟨S1000, .f32⟩
  | .hbm, ⟨14, _⟩ => ⟨S1000x1, .f32⟩
  | .hbm, ⟨15, _⟩ => ⟨S1000x1, .f32⟩
  | .hbm, ⟨16, _⟩ => ⟨S_, .f32⟩
  | .hbm, ⟨17, _⟩ => ⟨S1000x1, .f32⟩
  | .hbm, ⟨18, _⟩ => ⟨S1000x1, .f32⟩
  | .hbm, ⟨19, _⟩ => ⟨S32768x128, .f32⟩
  | .hbm, ⟨20, _⟩ => ⟨S32768x128, .f32⟩
  | .hbm, ⟨21, _⟩ => ⟨S1000x128, .f32⟩
  | .hbm, ⟨22, _⟩ => ⟨S1000x128, .f32⟩
  | .hbm, ⟨23, _⟩ => ⟨S32768x1000, .f32⟩
  | .hbm, ⟨24, _⟩ => ⟨S32768x1, .i32⟩
  | .hbm, ⟨25, _⟩ => ⟨S1x1000, .i32⟩
  | .hbm, ⟨26, _⟩ => ⟨S32768x1000, .i32⟩
  | .hbm, ⟨27, _⟩ => ⟨S32768x1000, .i32⟩
  | .hbm, ⟨28, _⟩ => ⟨S32768x1000, .i1⟩
  | .hbm, ⟨29, _⟩ => ⟨S32768x1000, .f32⟩
  | .hbm, ⟨30, _⟩ => ⟨S32768x1000, .f32⟩
  | .hbm, ⟨31, _⟩ => ⟨S_, .f32⟩
  | .hbm, ⟨32, _⟩ => ⟨S32768, .f32⟩
  | .hbm, ⟨33, _⟩ => ⟨S_, .f32⟩
  | .hbm, ⟨34, _⟩ => ⟨S32768x1000, .f32⟩
  | .hbm, ⟨35, _⟩ => ⟨S32768x1000, .f32⟩
  | .hbm, ⟨36, _⟩ => ⟨S32768x1000, .f32⟩
  | .hbm, ⟨37, _⟩ => ⟨S_, .f32⟩
  | .hbm, ⟨38, _⟩ => ⟨S32768, .f32⟩
  | .hbm, ⟨39, _⟩ => ⟨S_, .f32⟩
  | .hbm, ⟨40, _⟩ => ⟨S32768, .f32⟩
  | .hbm, ⟨41, _⟩ => ⟨S32768, .f32⟩
  | .hbm, ⟨42, _⟩ => ⟨S_, .f32⟩
  | .hbm, ⟨43, _⟩ => ⟨S32768, .f32⟩
  | .hbm, ⟨44, _⟩ => ⟨S32768, .f32⟩
  | .hbm, ⟨45, _⟩ => ⟨S_, .f32⟩
  | .hbm, ⟨46, _⟩ => ⟨S32768, .f32⟩
  | .hbm, ⟨47, _⟩ => ⟨S32768, .f32⟩
  | .hbm, ⟨48, _⟩ => ⟨S32768, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | _, _ => ⟨S32768x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_call1_v0 : Ref sig .tc := ⟨.hbm, 11, rfl⟩
abbrev main_call1_cst : Ref sig .tc := ⟨.hbm, 12, rfl⟩
abbrev main_call1_v1 : Ref sig .tc := ⟨.hbm, 13, rfl⟩
abbrev main_call1_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_call2_v0 : Ref sig .tc := ⟨.hbm, 24, rfl⟩
abbrev main_call2_v1 : Ref sig .tc := ⟨.hbm, 25, rfl⟩
abbrev main_call2_v2 : Ref sig .tc := ⟨.hbm, 26, rfl⟩
abbrev main_call2_v3 : Ref sig .tc := ⟨.hbm, 27, rfl⟩
abbrev main_call2_v4 : Ref sig .tc := ⟨.hbm, 28, rfl⟩
abbrev main_v11 : Ref sig .tc := ⟨.hbm, 29, rfl⟩
abbrev main_v12 : Ref sig .tc := ⟨.hbm, 30, rfl⟩
abbrev main_cst_1 : Ref sig .tc := ⟨.hbm, 31, rfl⟩
abbrev main_v13 : Ref sig .tc := ⟨.hbm, 32, rfl⟩
abbrev main_cst_2 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_cst_3 : Ref sig .tc := ⟨.hbm, 37, rfl⟩
abbrev main_v17 : Ref sig .tc := ⟨.hbm, 38, rfl⟩
abbrev main_cst_4 : Ref sig .tc := ⟨.hbm, 39, rfl⟩
abbrev main_v18 : Ref sig .tc := ⟨.hbm, 40, rfl⟩
abbrev main_v19 : Ref sig .tc := ⟨.hbm, 41, rfl⟩
abbrev main_cst_5 : Ref sig .tc := ⟨.hbm, 42, rfl⟩
abbrev main_v20 : Ref sig .tc := ⟨.hbm, 43, rfl⟩
abbrev main_v21 : Ref sig .tc := ⟨.hbm, 44, rfl⟩
abbrev main_cst_6 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_cst_7 : Ref sig .tc := ⟨.hbm, 49, rfl⟩
abbrev main_v25 : Ref sig .tc := ⟨.hbm, 50, rfl⟩
abbrev main_cst_8 : Ref sig .tc := ⟨.hbm, 51, rfl⟩
abbrev main_v26 : Ref sig .tc := ⟨.hbm, 52, rfl⟩

abbrev nD : Nat := 1
abbrev τ : Topo := Topo.v7x

variable {F : FTy → Type} [FloatOps F]

class Facts₀ : Prop where
  reducesTo_S32768x128_S32768_d1 : S32768x128.ReducesTo [1] S32768
  h_S_ : 0 < S_.numel
  bcast_S32768_S32768x1_0 : S32768.BroadcastsInDim S32768x1 (![0] : Fin 1 → Fin S32768x1.rank)
  bcast_S_S32768x1 : S_.BroadcastsInDim S32768x1 (![] : Fin 0 → Fin S32768x1.rank)
  reducesTo_S1000x128_S1000_d1 : S1000x128.ReducesTo [1] S1000
  bcast_S1000_S1000x1_0 : S1000.BroadcastsInDim S1000x1 (![0] : Fin 1 → Fin S1000x1.rank)
  bcast_S_S1000x1 : S_.BroadcastsInDim S1000x1 (![] : Fin 0 → Fin S1000x1.rank)
  bcast_S32768x1_S32768x128_0_1 : S32768x1.BroadcastsInDim S32768x128 (![0, 1] : Fin 2 → Fin S32768x128.rank)
  bcast_S1000x1_S1000x128_0_1 : S1000x1.BroadcastsInDim S1000x128 (![0, 1] : Fin 2 → Fin S1000x128.rank)
  bcast_S32768x1_S32768x1000_0_1 : S32768x1.BroadcastsInDim S32768x1000 (![0, 1] : Fin 2 → Fin S32768x1000.rank)
  bcast_S1x1000_S32768x1000_0_1 : S1x1000.BroadcastsInDim S32768x1000 (![0, 1] : Fin 2 → Fin S32768x1000.rank)
  reducesTo_S32768x1000_S32768_d1 : S32768x1000.ReducesTo [1] S32768
  bcast_S_S32768x1000 : S_.BroadcastsInDim S32768x1000 (![] : Fin 0 → Fin S32768x1000.rank)
  bcast_S_S32768 : S_.BroadcastsInDim S32768 (![] : Fin 0 → Fin S32768.rank)
  reducesTo_S32768_S_d0 : S32768.ReducesTo [0] S_
  dot_S32768x128_S1000x128_S32768x1000_1_1_0_0_n_n_wf : DotDims.WF S32768x128 S1000x128 S32768x1000 [1] [1] [0] [0] [] []

variable [Facts₀]

def dot_S32768x128_S1000x128_S32768x1000_1_1_0_0_n_n : DotDims S32768x128 S1000x128 S32768x1000 where
  lhsContracting := [1]
  rhsContracting := [1]
  lhsNonContracting := [0]
  rhsNonContracting := [0]
  lhsBatch := []
  rhsBatch := []
  wf := dot_S32768x128_S1000x128_S32768x1000_1_1_0_0_n_n_wf

class Facts : Prop extends Facts₀ where

variable [Facts]
-- ==== Proof.KernelPieces.lean ====
/-
  What each control case of the kernel body leaves behind, as a value.

  The body keeps a running total in a one-element scratch. At the grid's first point it stores zero there, reads it
  back and stores the zero plus the point's block total; at every later point it stores what the point before left plus
  the point's block total; at the last point it also stores the running total divided by the batch size into the
  output block. Each statement below says so for one case, in terms of the body's pure payload functions.
-/
import proofs.«149100_j33174327394761_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- The running total after a point whose block is `(x0, x1, x2)`, entered with the scratch holding `acc`. -/
abbrev step (x0 : Vec F S1024x128 .f32) (x1 : Vec F S1000x128 .f32) (x2 : Vec F S1024x1 .i32) (acc : Vec F S1x1 .f32) :
    Vec F S1x1 .f32 :=
  k0_pay1 (k0_pay6 x0 x1 x2) (k0_pay7 x0 x1 x2) (Scalar.ofBits .f32 0x3F800000#32) acc

/-- A later point that is not the last: the scratch ends at the step from what it held. -/
theorem scratch_B (c : Dev nD) (i : grid0.Coords) (a1 : Memref sig .tc .vmem S1024x128 .f32) (h1 : a1.IsWhole)
    (a2 : Memref sig .tc .vmem S1000x128 .f32) (h2 : a2.IsWhole) (a3 : Memref sig .tc .vmem S1024x1 .i32) (h3 : a3.IsWhole)
    (a4 : Memref sig .tc .vmem S1x1 .f32) (h4 : a4.IsWhole) (a5 : Memref sig .tc .vmem S1x1 .f32) (h5 : a5.IsWhole)
    (hc0 : ¬cond0_0 i) (hc1 : ¬cond0_1 i)
    (x0 : Vec F S1024x128 .f32) (x1 : Vec F S1000x128 .f32) (x2 : Vec F S1024x1 .i32) (xs0 : Vec F S1x1 .f32) :
    sout0_B_0 c i a1 h1 a2 h2 a3 h3 a4 h4 a5 h5 hc0 hc1 x0 x1 x2 xs0 = step x0 x1 x2 xs0 := by
  unfold sout0_B_0
  rw [View.read_writes_eq_canon _ _ _ (scover0_B_0 c i a1 h1 a2 h2 a3 h3 a4 h4 a5 h5 hc0 hc1 x0 x1 x2 xs0)]
  unfold kernelRun0_B
  dsimp only
  sl_unfold_words
  rw [View.canon_unit_zero hz]
  simp only [View.readAt_eq_ld, h1.read_unread, h2.read_unread, h3.read_unread, h5.read_unread,
    View.ld_unit_zero (S := S1024x128) hz, View.ld_unit_zero (S := S1000x128) hz, View.ld_unit_zero (S := S1024x1) hz,
    View.ld_unit_zero (S := S1x1) hz]

/-- The last point: the scratch ends at the step from what it held, -/
theorem scratch_C (c : Dev nD) (i : grid0.Coords) (a1 : Memref sig .tc .vmem S1024x128 .f32) (h1 : a1.IsWhole)
    (a2 : Memref sig .tc .vmem S1000x128 .f32) (h2 : a2.IsWhole) (a3 : Memref sig .tc .vmem S1024x1 .i32) (h3 : a3.IsWhole)
    (a4 : Memref sig .tc .vmem S1x1 .f32) (h4 : a4.IsWhole) (a5 : Memref sig .tc .vmem S1x1 .f32) (h5 : a5.IsWhole)
    (hc0 : ¬cond0_0 i) (hc1 : cond0_1 i)
    (x0 : Vec F S1024x128 .f32) (x1 : Vec F S1000x128 .f32) (x2 : Vec F S1024x1 .i32) (xs0 : Vec F S1x1 .f32) :
    sout0_C_0 c i a1 h1 a2 h2 a3 h3 a4 h4 a5 h5 hc0 hc1 x0 x1 x2 xs0 = step x0 x1 x2 xs0 := by
  unfold sout0_C_0
  rw [View.read_writes_eq_canon _ _ _ (scover0_C_0 c i a1 h1 a2 h2 a3 h3 a4 h4 a5 h5 hc0 hc1 x0 x1 x2 xs0)]
  unfold kernelRun0_C
  dsimp only
  sl_unfold_words
  rw [View.canon_unit_zero hz]
  simp only [View.readAt_eq_ld, h1.read_unread, h2.read_unread, h3.read_unread, h5.read_unread,
    View.ld_unit_zero (S := S1024x128) hz, View.ld_unit_zero (S := S1000x128) hz, View.ld_unit_zero (S := S1024x1) hz,
    View.ld_unit_zero (S := S1x1) hz]

/-- and the output block at that total divided by the batch size. -/
theorem out_C (c : Dev nD) (i : grid0.Coords) (a1 : Memref sig .tc .vmem S1024x128 .f32) (h1 : a1.IsWhole)
    (a2 : Memref sig .tc .vmem S1000x128 .f32) (h2 : a2.IsWhole) (a3 : Memref sig .tc .vmem S1024x1 .i32) (h3 : a3.IsWhole)
    (a4 : Memref sig .tc .vmem S1x1 .f32) (h4 : a4.IsWhole) (a5 : Memref sig .tc .vmem S1x1 .f32) (h5 : a5.IsWhole)
    (hc0 : ¬cond0_0 i) (hc1 : cond0_1 i)
    (x0 : Vec F S1024x128 .f32) (x1 : Vec F S1000x128 .f32) (x2 : Vec F S1024x1 .i32) (xs0 : Vec F S1x1 .f32) :
    out0_C_3 c i a1 h1 a2 h2 a3 h3 a4 h4 a5 h5 hc0 hc1 x0 x1 x2 xs0 = k0_pay2 (step x0 x1 x2 xs0) := by
  unfold out0_C_3
  rw [View.read_writes_eq_canon _ _ _ (cover0_C_3 c i a1 h1 a2 h2 a3 h3 a4 h4 a5 h5 hc0 hc1 x0 x1 x2 xs0)]
  unfold kernelRun0_C
  dsimp only
  sl_unfold_words
  rw [View.canon_unit_zero hz]
  simp only [View.readAt_eq_ld, h1.read_unread, h2.read_unread, h3.read_unread, h5.read_unread,
    View.ld_unit_zero (S := S1024x128) hz, View.ld_unit_zero (S := S1000x128) hz, View.ld_unit_zero (S := S1024x1) hz,
    View.ld_unit_zero (S := S1x1) hz]
  rw [View.readCov_unit_zero (S := S1x1) _ hz]

/-- The first point: the scratch ends at the step from the zero the point itself stored. -/
theorem scratch_A (c : Dev nD) (i : grid0.Coords) (a1 : Memref sig .tc .vmem S1024x128 .f32) (h1 : a1.IsWhole)
    (a2 : Memref sig .tc .vmem S1000x128 .f32) (h2 : a2.IsWhole) (a3 : Memref sig .tc .vmem S1024x1 .i32) (h3 : a3.IsWhole)
    (a4 : Memref sig .tc .vmem S1x1 .f32) (h4 : a4.IsWhole) (a5 : Memref sig .tc .vmem S1x1 .f32) (h5 : a5.IsWhole)
    (hc0 : cond0_0 i) (hc1 : ¬cond0_1 i)
    (x0 : Vec F S1024x128 .f32) (x1 : Vec F S1000x128 .f32) (x2 : Vec F S1024x1 .i32) :
    sout0_A_0 c i a1 h1 a2 h2 a3 h3 a4 h4 a5 h5 hc0 hc1 x0 x1 x2 = step x0 x1 x2 k0_pay3 := by
  unfold sout0_A_0
  rw [View.read_writes_eq_canon _ _ _ (scover0_A_0 c i a1 h1 a2 h2 a3 h3 a4 h4 a5 h5 hc0 hc1 x0 x1 x2)]
  unfold kernelRun0_A
  dsimp only
  sl_unfold_words
  rw [View.canon_cons_unit_zero (S := S1x1) hz]
  simp only [View.readAt_eq_ld, h1.read_unread, h2.read_unread, h3.read_unread, h5.read_unread,
    View.ld_unit_zero (S := S1024x128) hz, View.ld_unit_zero (S := S1000x128) hz, View.ld_unit_zero (S := S1024x1) hz,
    View.ld_unit_zero (S := S1x1) hz]
  rw [View.readCov_unit_zero (S := S1x1) _ hz]

end Cert.KernelIdeal.Pieces

end
-- ==== Proof.KernelAccum.lean ====
/-
  The kernel's run, read as a value, at any float instance.

  The grid has 32 points; point `n` receives rows `1024 n … 1024 n + 1023` of the samples, all the class centers and
  the matching labels. The one-element scratch holds, after point `n`, the running total: the zero stored at the first
  point stepped through points `0 … n` (`total`). Only the last point stores into the output block and only there is
  the block written back, so the 1×1 result array ends at the total after point 31 divided by the batch size; the
  program's result is that array reshaped to a scalar.
-/
import proofs.«149100_j33174327394761_1_alg».proof.Proof.KernelPieces

noncomputable section

open Idealize.ShloMosaic Idealize.ShloMosaic.TcCoe Idealize.SL.Sem
open Idealize.ShloMosaic.Pipeline (Dat)

namespace Cert.KernelIdeal.Accum

open Cert.KernelIdeal Cert.KernelIdeal.Gen Cert.KernelIdeal.Pieces

variable {F : FTy → Type} [FloatOps F]
variable (m : (ℓ : Loc nD τ sig) → Buf (Elt F) ℓ) (ρ : Dev nD → PrngReg)

/-- The running total after point `n`: the stored zero, stepped through the blocks of points `0 … n`. -/
def total (c : Dev nD) : (n : ℕ) → n < cfg0.N → Vec F S1x1 .f32
  | 0, h => step (iblk m c 0 ⟨0, h⟩) (iblk m c 1 ⟨0, h⟩) (iblk m c 2 ⟨0, h⟩) k0_pay3
  | n + 1, h => step (iblk m c 0 ⟨n + 1, h⟩) (iblk m c 1 ⟨n + 1, h⟩) (iblk m c 2 ⟨n + 1, h⟩) (total c n (Nat.lt_of_succ_lt h))

/-- The scratch after point `n` holds the running total: by induction on the point. -/
theorem scratch_eq (c : Dev nD) : ∀ (n : ℕ) (h : n < cfg0.N), (outsAt0 m c n h).2 = total m c n h
  | 0, h => by
    rw [outsAt0_A m c ⟨0, h⟩ rfl (by show ¬(0 % 32 = 31); decide)]
    dsimp only
    rw [scratch_A]
    rfl
  | n + 1, h => by
    have hN : cfg0.N = 32 := N_0
    have h0 : ¬(⟨n + 1, h⟩ : Fin cfg0.N).val % 32 = 0 := by dsimp only; omega
    by_cases h1 : (⟨n + 1, h⟩ : Fin cfg0.N).val % 32 = 31
    · rw [outsAt0_C m c ⟨n + 1, h⟩ h0 h1]
      dsimp only
      rw [scratch_C]
      show step _ _ _ (outsAt0 m c n _).2 = step _ _ _ (total m c n _)
      rw [scratch_eq c n]
    · rw [outsAt0_B m c ⟨n + 1, h⟩ h0 h1]
      dsimp only
      rw [scratch_B]
      show step _ _ _ (outsAt0 m c n _).2 = step _ _ _ (total m c n _)
      rw [scratch_eq c n]

theorem lastLt : 31 < cfg0.N := by rw [show cfg0.N = 32 from N_0]; decide

/-- The last point. -/
abbrev tLast : Fin cfg0.N := ⟨31, lastLt⟩

/-- What the result array ends holding: the total after the last point, divided by the batch size. -/
abbrev result (c : Dev nD) : Buf (Elt F) ((c : Thread nD τ).loc main_v1) := k0_pay2 (total m c 31 lastLt)

/-- The output block after the last point. -/
theorem out_last (c : Dev nD) : (outsAt0 m c 31 lastLt).1 = result m c := by
  rw [outsAt0_C m c tLast (by decide) (by decide)]
  dsimp only
  rw [out_C]
  show k0_pay2 (step _ _ _ (outsAt0 m c 30 _).2) = k0_pay2 (step _ _ _ (total m c 30 _))
  rw [scratch_eq m c 30]

/-- The last point's output block starts at the origin of the 1×1 array and is one element along each axis. -/
theorem lastBlock : ∀ a : Fin 2, win0_3.index tLast a * win0_3.size a = 0 ∧ win0_3.xsize (grid0.coords tLast) a = 1 := by
  decide +kernel

/-- The only write-back is the last point's, and what it writes is the whole 1×1 array. -/
theorem flushed_eq (c : Dev nD) (t : Fin cfg0.N) (hf : (cfg0.win 3).flush t = true) :
    (dats m 0 c).flushed 3 t = ((cfg0.win 3).blk t).view.read (Elt F) (result m c) := by
  have hN : cfg0.N = 32 := N_0
  have ht : t = tLast := Fin.ext (by have := (flush0_3 t).mp hf; have := t.isLt; show t.val = 31; omega)
  subst ht
  show (cfg0.win 3).cut (grid0.coords tLast) ((dats m 0 c).after 3 tLast) = _
  rw [after0_3, out_last]
  have origin : (fun a => win0_3.index tLast a * main_v1.ty.shape.size a) = fun _ => 0 := funext fun a => (lastBlock a).1
  exact (Memref.read_access_unit_zero (Elt F) main_v1 origin (fun a => by rw [congrFun origin a]; simp) (result m c)).symm

/-- So the result array ends at `result`: its one index lies in the block the last point writes back. -/
theorem final_o (c : Dev nD) : (dats m 0 c).arrAt 3 cfg0.N = result m c := by
  refine (dats m 0 c).arrAt_eq_of_cover 3 (result m c) (flushed_eq m c) fun i => ⟨tLast, (flush0_3 tLast).mpr rfl, ?_⟩
  show i ∈ ((View.whole main_v1).slice (win0_3.rect tLast)).set
  rw [View.set_slice_whole, Rect.mem_set_unit]
  intro a
  have hi : (i a : Nat) < 1 := by
    match a with
    | ⟨0, _⟩ => exact (i 0).isLt
    | ⟨1, _⟩ => exact (i 1).isLt
  show win0_3.index tLast a * win0_3.size a ≤ (i a : Nat)
    ∧ (i a : Nat) < win0_3.index tLast a * win0_3.size a + win0_3.xsize (grid0.coords tLast) a
  rw [(lastBlock a).1, (lastBlock a).2]
  omega

/-- The program's result: the 1×1 array reshaped to a scalar. -/
theorem tail_eq (c : Dev nD) :
    Pipeline.afterTail₀ cfgs (dats m) 0 (V0 m) [hostOps1] c main_v2 = shapeCast S_ (result m c) shapeCasts_S1x1_S_ := by
  unfold Pipeline.afterTail₀
  show StableHlo.after hostOps1 _ (Proc.devRef .tc main_v2) = _
  after_results
  have e : Pipeline.withArrays (cfgs 0).spec c (V0 m c) (fun w => (dats m 0 c).arrAt w (cfgs 0).N) (Proc.tc.devRef main_v1)
      = result m c :=
    (Pipeline.withArrays_arr spec0 launch0.win.arr_inj c _ _ 3).trans (final_o m c)
  rw [e]
  rfl

end Cert.KernelIdeal.Accum

end
-- ==== Proof.LibErealAlgebra.lean ====
/-
  Algebra on the extended reals for sums of products whose factors are real numbers.

  The extended reals are a commutative additive monoid and a commutative multiplicative monoid, but
  multiplication does not distribute over addition when the common factor is infinite
  (`⊤ * (1 + -1) = 0` while `⊤ * 1 + ⊤ * -1 = ⊥`). Every law below that moves a factor across a sum
  therefore asks that the factors be real numbers; the laws that only regroup or reorder a sum do not.

  * `IsReal x`: the extended real `x` is (the image of) a real number; closed under `0`, `1`, `+`, `*`,
    `max`, finite sums, and the quotient by a nonzero real.
  * `quot_eq_mul_recip`: dividing by a nonzero real is multiplying by the quotient `1 / c` computed first.
  * `sum_mul_add_indicator`: a row times a matrix column to which a unit vector was added is the row times the
    column plus the row's entry at the unit vector's position — the identity that folds a residual
    connection `h + h·Wᵀ` into one product `h·(W + I)ᵀ`.
-/
import Idealize.ShloMosaic.PureOps.Ideal

noncomputable section

namespace ErealAlgebra

open Idealize.ShloMosaic

/-- The extended real `x` is a real number. -/
def IsReal (x : EReal) : Prop := ∃ r : ℝ, x = (r : EReal)

theorem IsReal.coe (r : ℝ) : IsReal (r : EReal) := ⟨r, rfl⟩

theorem IsReal.zero : IsReal (0 : EReal) := ⟨0, by simp⟩

theorem IsReal.one : IsReal (1 : EReal) := ⟨1, by simp⟩

theorem IsReal.add {x y : EReal} (hx : IsReal x) (hy : IsReal y) : IsReal (x + y) := by
  obtain ⟨a, rfl⟩ := hx; obtain ⟨b, rfl⟩ := hy
  exact ⟨a + b, (EReal.coe_add a b).symm⟩

theorem IsReal.mul {x y : EReal} (hx : IsReal x) (hy : IsReal y) : IsReal (x * y) := by
  obtain ⟨a, rfl⟩ := hx; obtain ⟨b, rfl⟩ := hy
  exact ⟨a * b, (EReal.coe_mul a b).symm⟩

theorem IsReal.max {x y : EReal} (hx : IsReal x) (hy : IsReal y) : IsReal (max x y) := by
  rcases max_choice x y with h | h <;> rw [h] <;> assumption

/-- A finite sum of real numbers is a real number. -/
theorem IsReal.sum {ι : Type*} (s : Finset ι) (f : ι → EReal) (hf : ∀ i ∈ s, IsReal (f i)) :
    IsReal (∑ i ∈ s, f i) := by
  classical
  induction s using Finset.induction_on with
  | empty => simpa using IsReal.zero
  | insert a s ha ih =>
    rw [Finset.sum_insert ha]
    exact (hf a (Finset.mem_insert_self a s)).add (ih fun i hi => hf i (Finset.mem_insert_of_mem hi))

/-- The quotient of a real number by a nonzero real number is a real number. -/
theorem IsReal.div_coe {x : EReal} (hx : IsReal x) {c : ℝ} (hc : c ≠ 0) : IsReal (Ideal.div x (c : EReal)) := by
  rw [Ideal.div_coe hc]
  exact hx.mul (IsReal.coe _)

/-- Dividing by a nonzero real `c` is multiplying by the quotient `1 / c` computed first, for every extended
    real dividend. -/
theorem quot_eq_mul_recip (s : EReal) {c : ℝ} (hc : c ≠ 0) :
    s * Ideal.div 1 (c : EReal) = Ideal.div s (c : EReal) := by
  rw [Ideal.div_coe hc, Ideal.div_coe hc, one_mul]

/-- The coercion of the reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A row `h` of real numbers times a column `w + e`, where `e` is the unit vector at `j`, is the row times `w`
    plus the row's entry at `j`. -/
theorem sum_mul_add_indicator {κ : Type*} [Fintype κ] [DecidableEq κ] (h w e : κ → EReal) (j : κ)
    (hh : ∀ k, IsReal (h k)) (hw : ∀ k, IsReal (w k)) (he : ∀ k, e k = if k = j then 1 else 0) :
    ∑ k, h k * (w k + e k) = (∑ k, h k * w k) + h j := by
  choose hr hhr using hh
  choose wr hwr using hw
  have h1 : ∀ k, h k * (w k + e k) = h k * w k + (if k = j then h k else 0) := by
    intro k
    rw [he k, hhr k, hwr k]
    by_cases hk : k = j
    · simp only [hk, if_true]
      rw [← EReal.coe_one, ← EReal.coe_add, ← EReal.coe_mul, ← EReal.coe_mul, ← EReal.coe_add]
      congr 1; ring
    · simp only [hk, if_false, add_zero]
  simp only [h1]
  rw [Finset.sum_add_distrib, Finset.sum_ite_eq' Finset.univ j h]
  simp

end ErealAlgebra

end
-- ==== Proof.RowLoss.lean ====
/-
  One sample's loss, in the two arrangements the programs compute it in, and the law that joins them.

  For a sample with similarities `s c` to the classes `c` and a label that hits at most one class, one program forms
    intra = ∑ (s c where hit, else 0),   inter = ((∑ s c) - intra) / (C - 1)
  and the other
    intra = 0 + ∑ s c · hit c,           inter = (0 + ∑ s c · (1 - hit c)) / (C - 1),
  both returning `(1 - intra) + 1 · inter`. The second `inter` distributes `s c` over `1 - hit c` and the first cancels
  `intra` from the whole sum; both steps fail at an infinite similarity, so the law asks that every `s c` be a real number.
-/
import proofs.«149100_j33174327394761_1_alg».proof.Proof.LibErealAlgebra
import Idealize.ShloMosaic.Lib.ValueIdx

noncomputable section

namespace RowLoss

open Idealize.ShloMosaic ErealAlgebra

variable {C : Type} [Fintype C]

/-- The indicator of a one-bit word, as an extended real. -/
def ind (b : BitVec 1) : EReal := ((b.toNat : ℝ) : EReal)

/-- The loss from the masked sum and the whole sum. -/
def viaMask (z one d : EReal) (s : C → EReal) (hit : C → BitVec 1) : EReal :=
  (one - ∑ c, Scalar.select (hit c) (s c) z) + one * Ideal.div ((∑ c, s c) - ∑ c, Scalar.select (hit c) (s c) z) d

/-- The loss from the products with the indicator and with its complement. -/
def viaOneHot (z one d : EReal) (s : C → EReal) (hit : C → BitVec 1) : EReal :=
  (one - (z + ∑ c, s c * ind (hit c))) + one * Ideal.div (z + ∑ c, s c * (one - ind (hit c))) d

theorem ind_one : ind 1#1 = 1 := by simp [ind]
theorem ind_zero : ind 0#1 = 0 := by simp [ind]

/-- For real similarities the two arrangements agree. -/
theorem viaMask_eq_viaOneHot (s : C → EReal) (hs : ∀ c, IsReal (s c)) (hit : C → BitVec 1) (d : EReal) :
    viaMask 0 1 d s hit = viaOneHot 0 1 d s hit := by
  choose r hr using hs
  have hI : ∑ c, Scalar.select (hit c) (s c) 0 = ((∑ c, if hit c = 1#1 then r c else 0 : ℝ) : EReal) := by
    rw [coe_sum]
    refine Finset.sum_congr rfl fun c _ => ?_
    by_cases h : hit c = 1#1
    · rw [h, ValueIdx.select_one, if_pos rfl, hr c]
    · rw [ValueIdx.eq_zero_of_ne_one h, ValueIdx.select_zero, if_neg (by decide)]; simp
  have hT : ∑ c, s c = ((∑ c, r c : ℝ) : EReal) := by
    rw [coe_sum]; exact Finset.sum_congr rfl fun c _ => hr c
  have hP : ∑ c, s c * ind (hit c) = ((∑ c, if hit c = 1#1 then r c else 0 : ℝ) : EReal) := by
    rw [coe_sum]
    refine Finset.sum_congr rfl fun c _ => ?_
    by_cases h : hit c = 1#1
    · rw [h, ind_one, mul_one, if_pos rfl, hr c]
    · rw [ValueIdx.eq_zero_of_ne_one h, ind_zero, mul_zero, if_neg (by decide)]; simp
  have hQ : ∑ c, s c * (1 - ind (hit c)) = ((∑ c, r c : ℝ) : EReal) - ((∑ c, if hit c = 1#1 then r c else 0 : ℝ) : EReal) := by
    rw [← EReal.coe_sub, ← Finset.sum_sub_distrib, coe_sum]
    refine Finset.sum_congr rfl fun c _ => ?_
    by_cases h : hit c = 1#1
    · rw [h, ind_one, if_pos rfl, hr c,
        show (1 : EReal) - 1 = 0 from by rw [← EReal.coe_one, ← EReal.coe_sub, sub_self, EReal.coe_zero],
        mul_zero, sub_self, EReal.coe_zero]
    · rw [ValueIdx.eq_zero_of_ne_one h, ind_zero, if_neg (by decide), hr c, sub_zero, mul_one, sub_zero]
  unfold viaMask viaOneHot
  rw [hI, hT, hP, hQ, zero_add, zero_add]

end RowLoss

end
-- ==== Proof.Consts.lean ====
/-
  The float literals the two programs spell, as the extended reals their bit patterns denote.
-/
import Idealize.ShloMosaic.PureOps.Ideal
import Idealize.ShloMosaic.PureOps.Ideal.Laws

noncomputable section

namespace Cert.Consts

open Idealize.ShloMosaic

/-- `1.0` denotes `1`. -/
theorem ofBits_one : Ideal.ofBits .f32 0x3F800000#32 = 1 := by
  simp [Ideal.ofBits, Ideal.ieee, -EReal.coe_mul]; norm_num

/-- `999.0` denotes the real `999`. -/
theorem ofBits_999 : Ideal.ofBits .f32 0x4479C000#32 = ((999 : ℝ) : EReal) := by
  simp [Ideal.ofBits, Ideal.ieee, -EReal.coe_mul]; norm_num

/-- The small positive floor under both norms denotes a positive real. -/
theorem ofBits_eps : ∃ e : ℝ, 0 < e ∧ Ideal.ofBits .f32 0x322BCC77#32 = (e : EReal) := by
  refine ⟨_, ?_, by simp [Ideal.ofBits, Ideal.ieee, -EReal.coe_mul]; rfl⟩
  positivity

end Cert.Consts

end
-- ==== Proof.CosineLoss.lean ====
/-
  The loss both programs compute, as one function of the three argument arrays, and the equality of its two arrangements.

  Each sample row and each class-center row is divided by its Euclidean norm floored at a small positive constant; the
  similarity of a sample and a class is the dot product of the two unit rows. A sample's loss is
  `(1 - intra) + 1 · inter` with `intra` the similarity to the labelled class and `inter` the mean similarity to the
  other 999 classes; the result is the sum of the 32768 losses divided by 32768.

  One program takes `intra` by a mask and `inter` as (whole sum − intra)/999, adding the losses up 1024 samples at a
  time over 32 consecutive blocks; the other multiplies by the one-hot row and by its complement and adds all 32768
  losses at once. For finite inputs every similarity is a real number (the floored norm is a positive real), which is
  what the cancellation and the distributivity between the two arrangements need; regrouping the outer sum needs nothing.
-/
import proofs.«149100_j33174327394761_1_alg».proof.Proof.RowLoss
import proofs.«149100_j33174327394761_1_alg».proof.Proof.Consts

noncomputable section

namespace CosineLoss

open Idealize.ShloMosaic Idealize.ShloMosaic.ValueIdx ErealAlgebra

/-- The floor under the norms, the number of other classes, the batch size: as the programs spell them. -/
abbrev eps : EReal := Ideal.ofBits .f32 0x322BCC77#32
abbrev others : EReal := Ideal.ofBits .f32 0x4479C000#32
abbrev batch : EReal := Ideal.ofBits .f32 0x47000000#32

/-- The floored norm of a row. -/
def norm (v : Fin 128 → EReal) : EReal := max (Ideal.sqrt (∑ k, v k * v k)) eps

/-- A row divided by its floored norm. -/
def unit (v : Fin 128 → EReal) (k : Fin 128) : EReal := Ideal.div (v k) (norm v)

/-- The similarity of two rows. -/
def cosine (u v : Fin 128 → EReal) : EReal := ∑ k, unit u k * unit v k

theorem sqrt_real (r : ℝ) : Ideal.sqrt (r : EReal) = ⊥ ∨ IsReal (Ideal.sqrt (r : EReal)) := by
  show (if r < 0 then (⊥ : EReal) else (Real.sqrt r : EReal)) = ⊥ ∨ IsReal (if r < 0 then (⊥ : EReal) else (Real.sqrt r : EReal))
  split
  · exact Or.inl rfl
  · exact Or.inr (IsReal.coe _)

/-- The floored norm of a row of reals is a nonzero real. -/
theorem norm_real (v : Fin 128 → EReal) (hv : ∀ k, IsReal (v k)) : ∃ n : ℝ, n ≠ 0 ∧ norm v = (n : EReal) := by
  obtain ⟨e, he, hE⟩ := Cert.Consts.ofBits_eps
  obtain ⟨q, hq⟩ := IsReal.sum Finset.univ (fun k => v k * v k) fun k _ => (hv k).mul (hv k)
  unfold norm eps
  rw [hq, hE]
  rcases sqrt_real q with hb | ⟨s, hs⟩
  · rw [hb, max_eq_right bot_le]; exact ⟨e, ne_of_gt he, rfl⟩
  · rw [hs]
    refine ⟨max s e, ne_of_gt (lt_of_lt_of_le he (le_max_right s e)), ?_⟩
    rcases le_total s e with h | h
    · rw [max_eq_right h, max_eq_right (EReal.coe_le_coe_iff.2 h)]
    · rw [max_eq_left h, max_eq_left (EReal.coe_le_coe_iff.2 h)]

theorem unit_real (v : Fin 128 → EReal) (hv : ∀ k, IsReal (v k)) (k : Fin 128) : IsReal (unit v k) := by
  obtain ⟨n, hn, hN⟩ := norm_real v hv
  unfold unit
  rw [hN]
  exact (hv k).div_coe hn

theorem cosine_real (u v : Fin 128 → EReal) (hu : ∀ k, IsReal (u k)) (hv : ∀ k, IsReal (v k)) : IsReal (cosine u v) :=
  IsReal.sum _ _ fun k _ => (unit_real u hu k).mul (unit_real v hv k)

/-! ## Over the argument arrays -/

variable (H : (⟨2, ![32768, 128]⟩ : Shape).Idx → EReal) (Cn : (⟨2, ![1000, 128]⟩ : Shape).Idx → EReal)
  (Y : (⟨1, ![32768]⟩ : Shape).Idx → BitVec 32)

/-- Sample `b`'s similarity to class `c`. -/
def sims (b : Fin 32768) (c : Fin 1000) : EReal := cosine (fun k => H (ix2 b k)) (fun k => Cn (ix2 c k))

/-- Whether class `c` is sample `b`'s label. -/
def hits (b : Fin 32768) (c : Fin 1000) : BitVec 1 := IntOp.cmpi .eq (BitVec.ofNat 32 c.val) (Y (ix1 b))

/-- Sample `b`'s loss, by the mask. -/
def lossMasked (b : Fin 32768) : EReal := RowLoss.viaMask 0 1 others (sims H Cn b) (hits Y b)

/-- Sample `b`'s loss, by the one-hot products. -/
def lossOneHot (b : Fin 32768) : EReal := RowLoss.viaOneHot 0 1 others (sims H Cn b) (hits Y b)

/-- The sample a natural number names (the numbers in use are below 32768). -/
def rowAt (n : ℕ) : Fin 32768 := ⟨n % 32768, Nat.mod_lt _ (by decide)⟩

/-- The total of block `s`: its 1024 samples' losses. -/
def blockTotal (s : ℕ) : EReal := ∑ r : Fin 1024, lossMasked H Cn Y (rowAt (1024 * s + r.val))

/-- The mean, accumulated block by block. -/
def meanBlocked : EReal := Ideal.div (∑ s ∈ Finset.range 32, blockTotal H Cn Y s) batch

/-- The mean, summed at once. -/
def meanWhole : EReal := Ideal.div (∑ b : Fin 32768, lossOneHot H Cn Y b) batch

theorem loss_eq (hH : ∀ i, IsReal (H i)) (hC : ∀ i, IsReal (Cn i)) (b : Fin 32768) :
    lossMasked H Cn Y b = lossOneHot H Cn Y b :=
  RowLoss.viaMask_eq_viaOneHot _ (fun c => cosine_real _ _ (fun k => hH _) (fun k => hC _)) _ _

/-- The 32 blocks of 1024 consecutive samples are all the samples. -/
theorem sum_blocks (f : Fin 32768 → EReal) :
    ∑ s ∈ Finset.range 32, ∑ r : Fin 1024, f (rowAt (1024 * s + r.val)) = ∑ b : Fin 32768, f b := by
  rw [Finset.sum_range]
  rw [← Fintype.sum_prod_type' (f := fun (s : Fin 32) (r : Fin 1024) => f (rowAt (1024 * s.val + r.val)))]
  rw [← Equiv.sum_comp (finProdFinEquiv (m := 32) (n := 1024)) f]
  refine Finset.sum_congr rfl fun p _ => congrArg f (Fin.ext ?_)
  show (1024 * p.1.val + p.2.val) % 32768 = p.2.val + 1024 * p.1.val
  have h1 := p.1.isLt; have h2 := p.2.isLt
  omega

/-- The two programs' means agree on finite inputs. -/
theorem meanBlocked_eq_meanWhole (hH : ∀ i, IsReal (H i)) (hC : ∀ i, IsReal (Cn i)) :
    meanBlocked H Cn Y = meanWhole H Cn Y := by
  unfold meanBlocked meanWhole blockTotal
  rw [sum_blocks (lossMasked H Cn Y)]
  exact congrArg (Ideal.div · batch) (Finset.sum_congr rfl fun b _ => loss_eq H Cn Y hH hC b)

end CosineLoss

end
-- ==== Proof.LibKeepDims.lean ====
/-
  Reading a row reduction that keeps its reduced axis at an index, at the ideal instance.

  A kernel that sums along the lanes and keeps the reduced axis as a unit axis computes a lane sum `[a, b] → [a]`, casts it to a column
  `[a] → [a, 1]`, and later broadcasts such a column back over the lanes `[a, 1] → [a, b]`; a sum over the rows of a column,
  `[a, 1] → [1]`, is cast to `[1, 1]`. Each lemma reads one of these at an index written with literal coordinates.
-/
import Idealize.ShloMosaic.Lib.ValueIdx
import Idealize.ShloMosaic.Lib.ValueLayout
import Idealize.ShloMosaic.Lib.Pipeline.Value
import Idealize.ShloMosaic.PureOps.Ideal.Laws

noncomputable section

namespace KeepDims

open Idealize.ShloMosaic Idealize.ShloMosaic.ValueIdx

variable {α : Type} {a b : ℕ}

/-- A vector `[a]` cast to a column `[a, 1]` reads, at `(r, u)`, the vector at `r`. -/
theorem shapeCast_a_a1_apply (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast over `b` lanes reads, at `(r, k)`, the column at `r`. -/
theorem broadcastTo_a1_ab_apply (v : (⟨2, ![a, 1]⟩ : Shape).Idx → α) (h : (⟨2, ![a, 1]⟩ : Shape).Broadcasts ⟨2, ![a, b]⟩)
    (r : Fin a) (k : Fin b) : broadcastTo ⟨2, ![a, b]⟩ v h (ix2 r k) = v (ix2 r (0 : Fin 1)) := by
  refine broadcastTo_apply v h (ix2 r k) (ix2 r (0 : Fin 1)) fun ax => ?_
  match ax with
  | ⟨0, _⟩ =>
    show r.val = if a = 1 then 0 else r.val
    split
    · have := r.isLt; omega
    · rfl
  | ⟨1, _⟩ => rfl

/-- The lane sum of an `[a, b]` array, at row `r`: the sum over the lanes. -/
theorem laneSum_apply (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (r : Fin a) :
    multiReduction .add [1] ⟨1, ![a]⟩ src 0x00000000#32 h hφ hacc (ix1 r) = ∑ k : Fin b, src (ix2 r k) := by
  refine (Ideal.multiReduction_add_single src 0x00000000#32 h hφ hacc (ix1 r)).trans ?_
  refine Finset.sum_congr rfl fun k _ => congrArg src (funext fun ax => Fin.ext ?_)
  match ax with
  | ⟨0, _⟩ => rfl
  | ⟨1, _⟩ => rfl

/-- The sum over the rows of a column `[a, 1]`, at its one index. -/
theorem colSum_apply (src : FVec Ideal ⟨2, ![a, 1]⟩ .f32) (h : (⟨2, ![a, 1]⟩ : Shape).Reduces [0] ⟨1, ![1]⟩)
    (hφ : FKind.Formats .f32) (hacc : (0x00000000#32 : BitVec 32) = 0x00000000#32) (u : Fin 1) :
    multiReduction .add [0] ⟨1, ![1]⟩ src 0x00000000#32 h hφ hacc (ix1 u) = ∑ r : Fin a, src (ix2 r (0 : Fin 1)) := by
  refine (Ideal.multiReduction_add_single src 0x00000000#32 h hφ hacc (ix1 u)).trans ?_
  refine Finset.sum_congr rfl fun k _ => congrArg src (funext fun ax => Fin.ext ?_)
  match ax with
  | ⟨0, _⟩ => rfl
  | ⟨1, _⟩ =>
    show u.val = 0
    omega

end KeepDims

end
-- ==== Proof.LibPlainDot.lean ====
/-
  A plain matrix product — rows × contraction times contraction × columns, no batch axis — read at an index.

  For dimension numbers `d` of that kind over shapes `[P, K]`, `[K, Q]`, `[P, Q]`, the exact contraction
  `∑ κ, l (d.lhsIdx j κ) * r (d.rhsIdx j κ)` over the one contracted axis is the textbook sum
  `∑ k : Fin K, l (p, k) * r (k, q)` at the result index `j = (p, q)`: the left operand is read at row `p` and the
  right at column `q`, and the contracted axis of extent `K` is re-indexed by `Fin K`.
-/
import Idealize.ShloMosaic.Lib.ValueIdx
import Idealize.ShloMosaic.PureOps.Ideal.Laws

noncomputable section

namespace PlainDot

open Idealize.ShloMosaic Idealize.ShloMosaic.ValueIdx

variable {P K Q : Nat}

/-- The dimension numbers of a plain product: the left operand contracts its second axis against the right operand's
    first; the other two axes are the result's, in that order; no batch axis. -/
structure IsPlain (d : DotDims ⟨2, ![P, K]⟩ ⟨2, ![K, Q]⟩ ⟨2, ![P, Q]⟩) : Prop where
  lc : d.lhsContracting = [(1 : Fin 2)]
  rc : d.rhsContracting = [(0 : Fin 2)]
  ln : d.lhsNonContracting = [(0 : Fin 2)]
  rn : d.rhsNonContracting = [(1 : Fin 2)]
  lb : d.lhsBatch = []
  rb : d.rhsBatch = []

theorem coord_val_congr {s : Shape} (j : s.Idx) {a b : Fin s.rank} (e : a = b) : (j a).val = (j b).val := by
  subst e; rfl

variable {d : DotDims ⟨2, ![P, K]⟩ ⟨2, ![K, Q]⟩ ⟨2, ![P, Q]⟩}

/-- The left operand's row is the result's row. -/
theorem lhs_row (h : IsPlain d) (j : (⟨2, ![P, Q]⟩ : Shape).Idx) (κ : d.contr.Idx) :
    (d.lhsIdx j κ (0 : Fin 2)).val = (j (0 : Fin 2)).val := by
  unfold DotDims.lhsIdx
  rw [dif_neg (by rw [h.lb]; exact List.not_mem_nil), dif_pos (by rw [h.ln]; exact List.mem_singleton.2 rfl)]
  simp only [Fin.val_cast]
  exact coord_val_congr j (Fin.ext (by simp [h.lb, h.ln]))

/-- The right operand's column is the result's column. -/
theorem rhs_col (h : IsPlain d) (j : (⟨2, ![P, Q]⟩ : Shape).Idx) (κ : d.contr.Idx) :
    (d.rhsIdx j κ (1 : Fin 2)).val = (j (1 : Fin 2)).val := by
  unfold DotDims.rhsIdx
  rw [dif_neg (by rw [h.rb]; exact List.not_mem_nil), dif_pos (by rw [h.rn]; exact List.mem_singleton.2 rfl)]
  simp only [Fin.val_cast]
  exact coord_val_congr j (Fin.ext (by simp [h.lb, h.ln, h.rn]))

theorem contr_rank (h : IsPlain d) : d.contr.rank = 1 := by rw [d.rank_contr, h.lc]; rfl

theorem contr_size (h : IsPlain d) : d.contr.size ⟨0, by rw [contr_rank h]; exact Nat.one_pos⟩ = K := by
  have e := d.size_contr 0 (by rw [h.lc]; exact Nat.one_pos)
  rw [e]
  simp [h.lc]

/-- THE PRODUCT AT `(p, q)`: the sum over `k : Fin K` of the left operand at `(p, k)` times the right at `(k, q)`. -/
theorem sum_eq (h : IsPlain d) (l : (⟨2, ![P, K]⟩ : Shape).Idx → EReal) (r : (⟨2, ![K, Q]⟩ : Shape).Idx → EReal)
    (p : Fin P) (q : Fin Q) :
    ∑ κ : d.contr.Idx, l (d.lhsIdx (ix2 p q) κ) * r (d.rhsIdx (ix2 p q) κ) = ∑ k : Fin K, l (ix2 p k) * r (ix2 k q) := by
  rw [← Equiv.sum_comp (contrEquiv1 d K (contr_rank h) (contr_size h)).symm]
  refine Finset.sum_congr rfl fun k _ => ?_
  have hk := contrEquiv1_symm_val d K (contr_rank h) (contr_size h) k
  have el : d.lhsIdx (ix2 p q) ((contrEquiv1 d K (contr_rank h) (contr_size h)).symm k) = ix2 p k :=
    funext fun a => Fin.ext (by
      match a with
      | ⟨0, _⟩ => exact lhs_row h _ _
      | ⟨1, _⟩ => exact (d.lhsIdx_val_of_single h.lc _ _).trans hk)
  have er : d.rhsIdx (ix2 p q) ((contrEquiv1 d K (contr_rank h) (contr_size h)).symm k) = ix2 k q :=
    funext fun a => Fin.ext (by
      match a with
      | ⟨0, _⟩ => exact (d.rhsIdx_val_of_single h.rc _ _).trans hk
      | ⟨1, _⟩ => exact rhs_col h _ _)
  rw [el, er]

/-- A `tpu.matmul` into the zero accumulator, at the ideal instance, read at `(p, q)`. -/
theorem matmul_zero_apply (h : IsPlain d) {φ₁ φ₂ : FTy} (l : FVec Ideal ⟨2, ![P, K]⟩ φ₁) (r : FVec Ideal ⟨2, ![K, Q]⟩ φ₂)
    (p : Fin P) (q : Fin Q) :
    FloatOps.matmul d none l r (constant ⟨2, ![P, Q]⟩ .f32 0x00000000#32) (ix2 p q) = ∑ k : Fin K, l (ix2 p k) * r (ix2 k q) := by
  rw [Ideal.matmul_constant_zero_apply]
  exact sum_eq h l r p q

/-- The host's `dot_general`, at the ideal instance, read at `(p, q)`. -/
theorem dotGeneral_apply (h : IsPlain d) {φ₁ φ₂ : FTy} (sched : HostSchedule) (l : FVec Ideal ⟨2, ![P, K]⟩ φ₁)
    (r : FVec Ideal ⟨2, ![K, Q]⟩ φ₂) (p : Fin P) (q : Fin Q) :
    FloatOps.dotGeneral d none sched l r (ix2 p q) = ∑ k : Fin K, l (ix2 p k) * r (ix2 k q) := by
  rw [Ideal.dotGeneral_apply]
  exact sum_eq h l r p q

end PlainDot

end
-- ==== Proof.KernelPayload.lean ====
/-
  The kernel body's arithmetic at the ideal instance, read at an index.

  With `x0` a block of 1024 sample rows, `x1` the 1000 class-center rows and `x2` the block's labels (a column), the body
  normalizes the rows of both, multiplies them into the 1024 × 1000 similarities, takes per sample the masked sum and the
  whole sum over the classes, forms the sample's loss, sums the 1024 losses and adds the sum to the running total.
-/
import proofs.«149100_j33174327394761_1_alg».proof.Proof.KernelPieces
import proofs.«149100_j33174327394761_1_alg».proof.Proof.CosineLoss
import proofs.«149100_j33174327394761_1_alg».proof.Proof.LibKeepDims
import proofs.«149100_j33174327394761_1_alg».proof.Proof.LibPlainDot

noncomputable section

open Idealize.ShloMosaic Idealize.ShloMosaic.ValueIdx

namespace Cert.KernelIdeal.Payload

open Cert.KernelIdeal Cert.KernelIdeal.Gen Cert.KernelIdeal.Pieces KeepDims

variable {a : ℕ}

/-- Row `r` of an array of `128`-vectors. -/
abbrev row (x : (⟨2, ![a, 128]⟩ : Shape).Idx → EReal) (r : Fin a) : Fin 128 → EReal := fun k => x (ix2 r k)

/-- The floored norms of the rows, as the body computes them (a column), at row `r`. -/
theorem normCol_apply (x : FVec Ideal ⟨2, ![a, 128]⟩ .f32) (h : (⟨2, ![a, 128]⟩ : Shape).Reduces [1] ⟨1, ![a]⟩)
    (hφ : FKind.Formats .f32) (hacc : (0x00000000#32 : BitVec 32) = 0x00000000#32)
    (hc : (⟨1, ![a]⟩ : Shape).ShapeCasts ⟨2, ![a, 1]⟩) (r : Fin a) (u : Fin 1) :
    maximumf (sqrt (shapeCast ⟨2, ![a, 1]⟩ (multiReduction .add [1] ⟨1, ![a]⟩ (mulf x x) 0x00000000#32 h hφ hacc) hc))
        (broadcast ⟨2, ![a, 1]⟩ (Scalar.ofBits (F := Ideal) .f32 0x322BCC77#32)) (ix2 r u)
      = CosineLoss.norm (row x r) := by
  show max (Ideal.sqrt (shapeCast ⟨2, ![a, 1]⟩ (multiReduction .add [1] ⟨1, ![a]⟩ (mulf x x) 0x00000000#32 h hφ hacc) hc (ix2 r u)))
    (Ideal.ofBits .f32 0x322BCC77#32) = _
  rw [shapeCast_a_a1_apply, laneSum_apply]
  rfl

/-- The rows divided by their floored norms, at `(r, k)`. -/
theorem unitRows_apply (x : FVec Ideal ⟨2, ![a, 128]⟩ .f32) (h : (⟨2, ![a, 128]⟩ : Shape).Reduces [1] ⟨1, ![a]⟩)
    (hφ : FKind.Formats .f32) (hacc : (0x00000000#32 : BitVec 32) = 0x00000000#32)
    (hc : (⟨1, ![a]⟩ : Shape).ShapeCasts ⟨2, ![a, 1]⟩) (hb : (⟨2, ![a, 1]⟩ : Shape).Broadcasts ⟨2, ![a, 128]⟩)
    (r : Fin a) (k : Fin 128) :
    divf x (broadcastTo ⟨2, ![a, 128]⟩
      (maximumf (sqrt (shapeCast ⟨2, ![a, 1]⟩ (multiReduction .add [1] ⟨1, ![a]⟩ (mulf x x) 0x00000000#32 h hφ hacc) hc))
        (broadcast ⟨2, ![a, 1]⟩ (Scalar.ofBits (F := Ideal) .f32 0x322BCC77#32))) hb) (ix2 r k)
      = CosineLoss.unit (row x r) k := by
  show Ideal.div (x (ix2 r k)) (broadcastTo ⟨2, ![a, 128]⟩ _ hb (ix2 r k)) = _
  rw [broadcastTo_a1_ab_apply, normCol_apply]
  rfl

theorem plain : PlainDot.IsPlain dot_S1024x128_S128x1000_S1024x1000_1_0_0_1_n_n := ⟨rfl, rfl, rfl, rfl, rfl, rfl⟩

/-- The similarities: sample `r` of the block against class `c`. -/
theorem sims_apply (x0 : Vec Ideal S1024x128 .f32) (x1 : Vec Ideal S1000x128 .f32) (r : Fin 1024) (c : Fin 1000) :
    k0_pay4 x0 x1 (ix2 r c) = CosineLoss.cosine (row x0 r) (row x1 c) := by
  unfold k0_pay4
  dsimp only
  refine (PlainDot.matmul_zero_apply plain _ _ r c).trans ?_
  refine Finset.sum_congr rfl fun k _ => ?_
  refine congrArg₂ (· * ·) (unitRows_apply x0 _ _ _ _ _ r k) ?_
  exact (transpose_ix2_apply _ _ k c).trans (unitRows_apply x1 _ _ _ _ _ c k)

/-- Whether class `c` is the label of sample `r` of the block. -/
abbrev hit (x2 : Vec Ideal S1024x1 .i32) (r : Fin 1024) (c : Fin 1000) : BitVec 1 :=
  IntOp.cmpi .eq (BitVec.ofNat 32 c.val) (x2 (ix2 r (0 : Fin 1)))

/-- The masked sum over the classes, at sample `r`. -/
theorem intra_apply (x0 : Vec Ideal S1024x128 .f32) (x1 : Vec Ideal S1000x128 .f32) (x2 : Vec Ideal S1024x1 .i32)
    (r : Fin 1024) (u : Fin 1) :
    k0_pay5 x0 x1 x2 (ix2 r u)
      = ∑ c : Fin 1000, Scalar.select (hit x2 r c) (CosineLoss.cosine (row x0 r) (row x1 c)) (Ideal.ofBits .f32 0x00000000#32) := by
  unfold k0_pay5
  dsimp only
  refine (shapeCast_a_a1_apply _ _ r u).trans ?_
  refine (laneSum_apply _ _ _ _ r).trans ?_
  refine Finset.sum_congr rfl fun c _ => ?_
  show Scalar.select (IntOp.cmpi .eq (iota .tc S1024x1000 32 [1] iota_S1024x1000_d1_w32 (ix2 r c))
      (broadcastTo S1024x1000 (shapeCast S1024x1 x2 shapeCasts_S1024x1_S1024x1) broadcasts_S1024x1_S1024x1000 (ix2 r c)))
    (k0_pay4 x0 x1 (ix2 r c)) (Ideal.ofBits .f32 0x00000000#32) = _
  rw [iota_single_apply, broadcastTo_a1_ab_apply, shapeCast_self, sims_apply]

/-- A sample's loss as the body forms it. -/
theorem loss_apply (x0 : Vec Ideal S1024x128 .f32) (x1 : Vec Ideal S1000x128 .f32) (x2 : Vec Ideal S1024x1 .i32)
    (r : Fin 1024) (u : Fin 1) :
    addf (k0_pay7 x0 x1 x2) (mulf (broadcast S1024x1 (Scalar.ofBits (F := Ideal) .f32 0x3F800000#32)) (k0_pay6 x0 x1 x2)) (ix2 r u)
      = RowLoss.viaMask (Ideal.ofBits .f32 0x00000000#32) (Ideal.ofBits .f32 0x3F800000#32) CosineLoss.others
          (fun c => CosineLoss.cosine (row x0 r) (row x1 c)) (hit x2 r) := by
  have hI := intra_apply x0 x1 x2 r u
  have hT : shapeCast S1024x1 (multiReduction .add [1] S1024 (k0_pay4 x0 x1) 0x00000000#32 reduces_S1024x1000_S1024 (.inl rfl) rfl)
      shapeCasts_S1024_S1024x1 (ix2 r u) = ∑ c : Fin 1000, CosineLoss.cosine (row x0 r) (row x1 c) := by
    refine (shapeCast_a_a1_apply _ _ r u).trans ?_
    refine (laneSum_apply _ _ _ _ r).trans ?_
    exact Finset.sum_congr rfl fun c _ => sims_apply x0 x1 r c
  unfold k0_pay7 k0_pay6 RowLoss.viaMask
  dsimp only
  show (Ideal.ofBits .f32 0x3F800000#32 - k0_pay5 x0 x1 x2 (ix2 r u))
      + Ideal.ofBits .f32 0x3F800000#32 * Ideal.div (shapeCast S1024x1 _ shapeCasts_S1024_S1024x1 (ix2 r u) - k0_pay5 x0 x1 x2 (ix2 r u))
          (Ideal.ofBits .f32 0x4479C000#32) = _
  rw [hI, hT]

/-- THE STEP: the running total after a block is what it held plus the block's 1024 losses. -/
theorem step_apply (x0 : Vec Ideal S1024x128 .f32) (x1 : Vec Ideal S1000x128 .f32) (x2 : Vec Ideal S1024x1 .i32)
    (acc : Vec Ideal S1x1 .f32) (j : S1x1.Idx) :
    step x0 x1 x2 acc j = acc j + ∑ r : Fin 1024,
      RowLoss.viaMask (Ideal.ofBits .f32 0x00000000#32) (Ideal.ofBits .f32 0x3F800000#32) CosineLoss.others
        (fun c => CosineLoss.cosine (row x0 r) (row x1 c)) (hit x2 r) := by
  obtain ⟨u, v, rfl⟩ : ∃ (u : Fin 1) (v : Fin 1), j = ix2 u v := ⟨j 0, j 1, eq_ix2 j⟩
  unfold step k0_pay1
  dsimp only
  rw [shapeCast_self]
  show acc (ix2 u v) + shapeCast S1x1 _ shapeCasts_S1_S1x1 (ix2 u v) = _
  refine congrArg (acc (ix2 u v) + ·) ?_
  refine (shapeCast_a_1a_apply _ _ u v).trans ?_
  refine (colSum_apply _ _ _ _ v).trans ?_
  exact Finset.sum_congr rfl fun r _ => loss_apply x0 x1 x2 r 0

end Cert.KernelIdeal.Payload

end
-- ==== Proof.KernelValue.lean ====
/-
  The kernel's result at the ideal instance, as a function of the argument arrays.

  Point `t`'s sample block is rows `1024 t … 1024 t + 1023` of the samples, its label block the same rows of the labels
  (the label vector reshaped to a column before the launch), and every point receives all the class centers. So the
  running total after point `n` is the stored zero plus the block totals of blocks `0 … n`, and the program's result is
  the total after the last point divided by the batch size: the mean accumulated block by block.
-/
import proofs.«149100_j33174327394761_1_alg».proof.Proof.KernelAccum
import proofs.«149100_j33174327394761_1_alg».proof.Proof.KernelPayload

noncomputable section

open Idealize.ShloMosaic Idealize.ShloMosaic.TcCoe Idealize.ShloMosaic.ValueIdx Idealize.SL.Sem
open Idealize.ShloMosaic.Pipeline (Dat)

namespace Cert.KernelIdeal.KValue

open Cert.KernelIdeal Cert.KernelIdeal.Gen Cert.KernelIdeal.Pieces Cert.KernelIdeal.Accum

variable (m : (ℓ : Loc nD τ sig) → Buf (Elt Ideal) ℓ) (ρ : Dev nD → PrngReg)

/-- The three argument arrays as launched. -/
abbrev H (c : Dev nD) : S32768x128.Idx → EReal := m ((c : Thread nD τ).loc main_arg0)
abbrev Cn (c : Dev nD) : S1000x128.Idx → EReal := m ((c : Thread nD τ).loc main_arg1)
abbrev Y (c : Dev nD) : S32768.Idx → BitVec 32 := m ((c : Thread nD τ).loc main_arg2)

theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem idx2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)

/-- Point `t`'s sample block is rows `1024 t + r` of the samples. -/
theorem blk0 (c : Dev nD) (t : Fin cfg0.N) (r : Fin 1024) (k : Fin 128) :
    (iblk m c 0 t : Vec Ideal S1024x128 .f32) (ix2 r k) = H m c (ix2 (CosineLoss.rowAt (1024 * t.val + r.val)) k) := by
  unfold iblk
  rw [View.read_apply]
  refine Eq.trans ?_ (congrFun (V_main_arg0 m c) _)
  show V m c main_arg0 (((cfg0.win 0).blk t).view.emb (ix2 r k)) = _
  refine congrArg (V m c main_arg0) (funext fun a => Fin.ext ?_)
  have hN : cfg0.N = 32 := N_0
  have ht := t.isLt
  match a with
  | ⟨0, _⟩ =>
    show win0_0.index t 0 * 1024 + 1 * r.val = (1024 * t.val + r.val) % 32768
    rw [(idx0 t).1]; omega
  | ⟨1, _⟩ =>
    show win0_0.index t 1 * 128 + 1 * k.val = k.val
    rw [(idx0 t).2]; omega

/-- Every point's center block is all the centers. -/
theorem blk1 (c : Dev nD) (t : Fin cfg0.N) (q : Fin 1000) (k : Fin 128) :
    (iblk m c 1 t : Vec Ideal S1000x128 .f32) (ix2 q k) = Cn m c (ix2 q k) := by
  unfold iblk
  rw [View.read_apply]
  refine Eq.trans ?_ (congrFun (V_main_arg1 m c) _)
  show V m c main_arg1 (((cfg0.win 1).blk t).view.emb (ix2 q k)) = _
  refine congrArg (V m c main_arg1) (funext fun a => Fin.ext ?_)
  match a with
  | ⟨0, _⟩ =>
    show win0_1.index t 0 * 1000 + 1 * q.val = q.val
    rw [(idx1 t).1]; omega
  | ⟨1, _⟩ =>
    show win0_1.index t 1 * 128 + 1 * k.val = k.val
    rw [(idx1 t).2]; omega

/-- The label column the region finds: the label vector reshaped. -/
theorem V_labels (c : Dev nD) :
    (V m c main_v0 : S32768x1.Idx → BitVec 32) = shapeCast S32768x1 (Y m c) shapeCasts_S32768_S32768x1 := by
  show StableHlo.after hostOps0 (fun b => m (c, b)) (Proc.devRef .tc main_v0) = _
  after_results
  rfl

/-- Point `t`'s label block is rows `1024 t + r` of the labels. -/
theorem blk2 (c : Dev nD) (t : Fin cfg0.N) (r : Fin 1024) :
    (iblk m c 2 t : Vec Ideal S1024x1 .i32) (ix2 r (0 : Fin 1)) = Y m c (ix1 (CosineLoss.rowAt (1024 * t.val + r.val))) := by
  unfold iblk
  rw [View.read_apply]
  have e : ((cfg0.win 2).blk t).view.emb (ix2 r (0 : Fin 1)) = ix2 (CosineLoss.rowAt (1024 * t.val + r.val)) (0 : Fin 1) := by
    refine funext fun a => Fin.ext ?_
    have hN : cfg0.N = 32 := N_0
    have ht := t.isLt
    match a with
    | ⟨0, _⟩ =>
      show win0_2.index t 0 * 1024 + 1 * r.val = (1024 * t.val + r.val) % 32768
      rw [(idx2 t).1]; omega
    | ⟨1, _⟩ =>
      show win0_2.index t 1 * 1 + 1 * 0 = 0
      rw [(idx2 t).2]
  show V m c main_v0 (((cfg0.win 2).blk t).view.emb (ix2 r (0 : Fin 1))) = _
  rw [e, V_labels, KeepDims.shapeCast_a_a1_apply]

/-- ONE POINT: the running total gains the block's total. -/
theorem step_block (c : Dev nD) (t : Fin cfg0.N) (acc : Vec Ideal S1x1 .f32) (j : S1x1.Idx) :
    step (iblk m c 0 t) (iblk m c 1 t) (iblk m c 2 t) acc j = acc j + CosineLoss.blockTotal (H m c) (Cn m c) (Y m c) t.val := by
  rw [Payload.step_apply, Ideal.ofBits_zero_f32, Cert.Consts.ofBits_one]
  refine congrArg (acc j + ·) (Finset.sum_congr rfl fun r _ => ?_)
  have hs : (fun q => CosineLoss.cosine (Payload.row (iblk m c 0 t : Vec Ideal S1024x128 .f32) r) (Payload.row (iblk m c 1 t : Vec Ideal S1000x128 .f32) q))
      = CosineLoss.sims (H m c) (Cn m c) (CosineLoss.rowAt (1024 * t.val + r.val)) := by
    funext q
    unfold CosineLoss.sims
    exact congrArg₂ CosineLoss.cosine (funext fun k => blk0 m c t r k) (funext fun k => blk1 m c t q k)
  have hh : Payload.hit (iblk m c 2 t : Vec Ideal S1024x1 .i32) r = CosineLoss.hits (Y m c) (CosineLoss.rowAt (1024 * t.val + r.val)) := by
    funext q
    unfold CosineLoss.hits
    show IntOp.cmpi .eq _ ((iblk m c 2 t : Vec Ideal S1024x1 .i32) (ix2 r (0 : Fin 1))) = _
    rw [blk2]
  unfold CosineLoss.lossMasked
  rw [hs, hh]

/-- The zero the first point stores. -/
theorem zero_apply (j : S1x1.Idx) : (k0_pay3 (F := Ideal)) j = 0 := by
  unfold k0_pay3
  rw [shapeCast_self]
  exact Ideal.ofBits_zero_f32

/-- The running total after point `n`: the block totals of blocks `0 … n`. -/
theorem total_apply (c : Dev nD) : ∀ (n : ℕ) (h : n < cfg0.N) (j : S1x1.Idx),
    total m c n h j = ∑ s ∈ Finset.range (n + 1), CosineLoss.blockTotal (H m c) (Cn m c) (Y m c) s
  | 0, h, j => by
    show step _ _ _ k0_pay3 j = _
    rw [step_block m c ⟨0, h⟩, zero_apply, zero_add, Finset.sum_range_one]
  | n + 1, h, j => by
    show step _ _ _ (total m c n _) j = _
    rw [step_block m c ⟨n + 1, h⟩, total_apply c n _ j, Finset.sum_range_succ _ (n + 1)]

/-- THE KERNEL'S RESULT is the mean, accumulated block by block. -/
theorem result_apply (c : Dev nD) (i : S_.Idx) :
    shapeCast S_ (result m c) shapeCasts_S1x1_S_ i = CosineLoss.meanBlocked (H m c) (Cn m c) (Y m c) := by
  refine (shapeCast_apply _ _ i (ix2 (0 : Fin 1) (0 : Fin 1)) ?_).trans ?_
  · have h1 : (S_.rowMajor i).val < S_.numel := (S_.rowMajor i).isLt
    have h2 : S_.numel = 1 := by decide
    rw [Shape.rowMajor_val_two]
    show 0 * _ + 0 = _
    omega
  · show Ideal.div (total m c 31 lastLt (ix2 (0 : Fin 1) (0 : Fin 1))) (Ideal.ofBits .f32 0x47000000#32) = _
    rw [total_apply]
    rfl

/-- The run, read: the result at the blocked mean of the argument arrays, the arguments unchanged. -/
theorem run : θ_run defs (onTc (τ := τ) (main (F := Ideal))) ⟨m, fun _ => 0, ρ⟩ fun r => ∀ c : Dev nD,
      r.2.mem ((c : Thread nD τ).loc main_v2) = (fun _ => CosineLoss.meanBlocked (H m c) (Cn m c) (Y m c))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) := by
  exact (θ_run defs _ _).mono (fun _ h c =>
    ⟨((h c).2 main_v2 (Pipeline.mem_restRefs_of main_v2 (by decide) (by decide))).trans
        ((tail_eq m c).trans (funext fun i => result_apply m c i)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.KValue

end
-- ==== Proof.RefSide.lean ====
/-
  The reference's result, read index by index, is the mean of the per-sample losses in the one-hot arrangement.
-/
import proofs.«149100_j33174327394761_1_alg».proof.Proof.Gen.ReferenceIdeal.Read
import proofs.«149100_j33174327394761_1_alg».proof.Proof.CosineLoss

noncomputable section

open Idealize.ShloMosaic Idealize.ShloMosaic.ValueIdx

namespace Cert.ReferenceIdeal.RefValue

open Cert.ReferenceIdeal Cert.ReferenceIdeal.Read

variable (x0 : (⟨S32768x128, .f32⟩ : BufTy).Contents (Elt Ideal)) (x1 : (⟨S1000x128, .f32⟩ : BufTy).Contents (Elt Ideal))
  (x2 : (⟨S32768, .i32⟩ : BufTy).Contents (Elt Ideal))

/-- A sample row divided by its floored norm. -/
theorem unitH (b : Fin 32768) (k : Fin 128) :
    val_main_v7 (F := Ideal) x0 (ix2 b k) = CosineLoss.unit (fun k => x0 (ix2 b k)) k := by
  have e : ∀ k', idx_main_call0_v1 (idx_main_call0_v2 (idx_main_v6 (ix2 b k))) k' = ix2 b k' := fun k' =>
    funext fun a => Fin.ext (by match a with | ⟨0, _⟩ => rfl | ⟨1, _⟩ => rfl)
  rw [val_main_v7_apply, val_main_v6_apply, val_main_v2_apply, val_main_v0_apply, val_main_call0_v2_apply,
    val_main_call0_v1_apply, val_main_v1_apply, val_main_cst_apply, val_main_call0_cst_apply]
  simp only [val_main_call0_v0_apply, e, Ideal.hostDivf_def, Ideal.maximumf_def, Ideal.hostUnary_sqrt_def, Ideal.mulf_def,
    Ideal.ofBits_def, Ideal.ofBits_zero_f32, zero_add]
  rfl

/-- A class-center row divided by its floored norm. -/
theorem unitC (c : Fin 1000) (k : Fin 128) :
    val_main_v9 (F := Ideal) x1 (ix2 c k) = CosineLoss.unit (fun k => x1 (ix2 c k)) k := by
  have e : ∀ k', idx_main_call1_v1 (idx_main_call1_v2 (idx_main_v8 (ix2 c k))) k' = ix2 c k' := fun k' =>
    funext fun a => Fin.ext (by match a with | ⟨0, _⟩ => rfl | ⟨1, _⟩ => rfl)
  rw [val_main_v9_apply, val_main_v8_apply, val_main_v5_apply, val_main_v3_apply, val_main_call1_v2_apply,
    val_main_call1_v1_apply, val_main_v4_apply, val_main_cst_0_apply, val_main_call1_cst_apply]
  simp only [val_main_call1_v0_apply, e, Ideal.hostDivf_def, Ideal.maximumf_def, Ideal.hostUnary_sqrt_def, Ideal.mulf_def,
    Ideal.ofBits_def, Ideal.ofBits_zero_f32, zero_add]
  rfl

/-- The similarities. -/
theorem sims_apply (b : Fin 32768) (c : Fin 1000) :
    val_main_v10 (F := Ideal) x0 x1 (ix2 b c) = CosineLoss.sims x0 x1 b c := by
  have el : ∀ k, lidx_main_v10 (ix2 b c) k = ix2 b k := fun k =>
    funext fun a => Fin.ext (by match a with | ⟨0, _⟩ => rfl | ⟨1, _⟩ => rfl)
  have er : ∀ k, ridx_main_v10 (ix2 b c) k = ix2 c k := fun k =>
    funext fun a => Fin.ext (by match a with | ⟨0, _⟩ => rfl | ⟨1, _⟩ => rfl)
  rw [val_main_v10_apply]
  unfold CosineLoss.sims CosineLoss.cosine
  refine Finset.sum_congr rfl fun k _ => ?_
  rw [el, er, unitH, unitC]

/-- The label's comparison with a class number, either way round. -/
theorem cmpi_eq_comm (p q : BitVec 32) : IntOp.cmpi .eq p q = IntOp.cmpi .eq q p := by
  unfold IntOp.cmpi
  show BitVec.ofBool (p == q) = BitVec.ofBool (q == p)
  rw [BEq.comm]

/-- The one-hot row. -/
theorem oneHot_apply (b : Fin 32768) (c : Fin 1000) :
    val_main_v11 (F := Ideal) x2 (ix2 b c) = RowLoss.ind (CosineLoss.hits x2 b c) := by
  have e2 : idx_main_call2_v0 (idx_main_call2_v2 (ix2 b c)) = ix1 b :=
    funext fun a => Fin.ext (by match a with | ⟨0, _⟩ => rfl)
  rw [val_main_v11_apply, val_main_call2_v4_apply, val_main_call2_v2_apply, val_main_call2_v0_apply, val_main_call2_v3_apply,
    val_main_call2_v1_apply, e2]
  unfold CosineLoss.hits
  rw [cmpi_eq_comm]
  rfl

/-- One sample's loss. -/
theorem loss_apply (b : Fin 32768) :
    val_main_v24 (F := Ideal) x0 x1 x2 (ix1 b) = CosineLoss.lossOneHot x0 x1 x2 b := by
  have e13 : ∀ c, idx_main_v13 (ix1 b) c = ix2 b c := fun c =>
    funext fun a => Fin.ext (by match a with | ⟨0, _⟩ => rfl | ⟨1, _⟩ => rfl)
  have e17 : ∀ c, idx_main_v17 (ix1 b) c = ix2 b c := fun c =>
    funext fun a => Fin.ext (by match a with | ⟨0, _⟩ => rfl | ⟨1, _⟩ => rfl)
  rw [val_main_v24_apply, val_main_v21_apply, val_main_v23_apply, val_main_v20_apply, val_main_v22_apply, val_main_v19_apply,
    val_main_v13_apply, val_main_v17_apply, val_main_v18_apply]
  simp only [val_main_cst_5_apply, val_main_cst_6_apply, val_main_cst_4_apply, val_main_cst_1_apply, val_main_cst_3_apply,
    val_main_v12_apply, val_main_v16_apply, val_main_v15_apply, val_main_v14_apply, val_main_cst_2_apply, e13, e17,
    sims_apply, oneHot_apply, Ideal.addf_def, Ideal.subf_def, Ideal.mulf_def, Ideal.hostDivf_def, Ideal.ofBits_def,
    Ideal.ofBits_zero_f32, Cert.Consts.ofBits_one]
  rfl

/-- The samples, by number. -/
def sampleEquiv : S32768.Idx ≃ Fin 32768 where
  toFun j := j 0
  invFun b := ix1 b
  left_inv j := (eq_ix1 j).symm
  right_inv _ := rfl

/-- THE REFERENCE'S RESULT is the mean of the losses, summed at once. -/
theorem result_apply (i : S_.Idx) :
    val_main_v26 (F := Ideal) x0 x1 x2 i = CosineLoss.meanWhole x0 x1 x2 := by
  have hs : ∑ j : S32768.Idx, val_main_v24 (F := Ideal) x0 x1 x2 j = ∑ b : Fin 32768, CosineLoss.lossOneHot x0 x1 x2 b :=
    Fintype.sum_equiv sampleEquiv _ _ fun j => by
      conv_lhs => rw [eq_ix1 j]
      exact loss_apply x0 x1 x2 (j 0)
  rw [val_main_v26_apply, val_main_v25_apply, val_main_cst_8_apply, val_main_cst_7_apply, hs]
  unfold CosineLoss.meanWhole
  simp only [Ideal.hostDivf_def, Ideal.ofBits_def, Ideal.ofBits_zero_f32, zero_add]

end Cert.ReferenceIdeal.RefValue

end
-- ==== Proof.Finite.lean ====
/-
  The precondition, read back: every entry of the two float arguments is a real number.

  The precondition compares the absolute value of every entry with +∞ and takes the conjunction over each array. An
  extended real whose absolute value is below +∞ is neither infinity, hence a real number.
-/
import proofs.«149100_j33174327394761_1_alg».proof.Proof.Gen.Pre_finite_inputs
import proofs.«149100_j33174327394761_1_alg».proof.Proof.LibErealAlgebra
import Idealize.ShloMosaic.Lib.ReduceAll
import Idealize.ShloMosaic.Lib.ValueIdx

noncomputable section

namespace Cert.Pre_finite_inputs.Finite

open Idealize.ShloMosaic ErealAlgebra Cert.Pre_finite_inputs Cert.Pre_finite_inputs.Gen

instance : Subsingleton S_.Idx := ⟨fun a b => funext fun d => d.elim0⟩

theorem ofBits_inf : Ideal.ofBits .f32 0x7F800000#32 = ⊤ := by
  simp [Ideal.ofBits, Ideal.ieee]

/-- An entry whose absolute value compares below +∞ is a real number. -/
theorem real_of_abs_lt (x : EReal) (h : Ideal.cmp .olt (max x (-x)) (Ideal.ofBits .f32 0x7F800000#32) = 1#1) : IsReal x := by
  rw [ofBits_inf] at h
  have hlt : max x (-x) < ⊤ := by
    by_contra hn
    simp [Ideal.cmp, hn] at h
  induction x using EReal.rec with
  | bot => simp at hlt
  | coe r => exact ⟨r, rfl⟩
  | top => simp at hlt

/-- Where the precondition holds, both float arguments are arrays of real numbers. -/
theorem finite (x0 : FVec Ideal S32768x128 .f32) (x1 : FVec Ideal S1000x128 .f32) (x2 : IVec S32768 32)
    (h : fn (F := Ideal) x0 x1 x2 = fun _ => 1#1) : (∀ i, IsReal (x0 i)) ∧ (∀ i, IsReal (x1 i)) := by
  have h0 := congrFun h ValueIdx.ix0
  dsimp only [fn] at h0
  obtain ⟨ha, hb⟩ := IntOp.andi_eq_one.1 h0
  refine ⟨fun i => real_of_abs_lt _ ?_, fun i => real_of_abs_lt _ ?_⟩
  · exact Host.reduce_andi_all _ _ _ _ _ ha i
  · exact Host.reduce_andi_all _ _ _ _ _ hb i

end Cert.Pre_finite_inputs.Finite

end
-- ==== Proof.lean ====
/-
  The certificate: a cosine-similarity center loss computed by a kernel that streams the samples through in 32 blocks
  of 1024 rows, against the same loss written with whole-array operations.

  Both programs normalize every sample row and every class-center row by its Euclidean norm floored at a small positive
  constant, take all sample–class dot products, and from each sample's row of similarities form
  `(1 - intra) + 1 · inter`, `intra` the similarity to the labelled class and `inter` the mean similarity to the other
  999 classes; the result is the sum of these losses over the 32768 samples divided by 32768.

  The kernel takes `intra` by masking the row and `inter` as (row sum − intra)/999, adds up the losses of each block and
  accumulates the block totals in a one-element scratch across the grid, dividing by the batch size at the last point;
  the reference multiplies the row by the label's one-hot vector and by its complement and sums all losses at once. The
  two arrangements agree on the extended reals once the similarities are real numbers, which finite inputs give: a floored
  norm is then a positive real, so every normalized entry and every dot product is real.

  The frames of the two kernel programs are the generated ones; the reference's frame is its generated run. The ideal pass
  rewrote nothing in the kernel, so the idealization claim is trivial.
-/
import proofs.«149100_j33174327394761_1_alg».proof.Defs
import proofs.«149100_j33174327394761_1_alg».proof.Proof.Gen.Kernel
import proofs.«149100_j33174327394761_1_alg».proof.Proof.Gen.Kernel.Frame
import proofs.«149100_j33174327394761_1_alg».proof.Proof.Gen.KernelIdeal
import proofs.«149100_j33174327394761_1_alg».proof.Proof.Gen.KernelIdeal.Frame
import proofs.«149100_j33174327394761_1_alg».proof.Proof.Gen.ReferenceIdeal
import proofs.«149100_j33174327394761_1_alg».proof.Proof.Gen.ReferenceIdeal.Run
import proofs.«149100_j33174327394761_1_alg».proof.Proof.Gen.Pre_finite_inputs
import proofs.«149100_j33174327394761_1_alg».proof.Proof.KernelValue
import proofs.«149100_j33174327394761_1_alg».proof.Proof.RefSide
import proofs.«149100_j33174327394761_1_alg».proof.Proof.Finite
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- At the ideal instance the kernel ends at the mean accumulated block by block and the reference at the mean summed at
    once, of arguments that agree; for finite arguments the two means are equal. -/
theorem algebraic : Cert.algebraic_KernelIdeal_ReferenceIdeal := by
  intro m ρ m' ρ' hpre hagree
  refine ⟨fun c => fun _ => CosineLoss.meanBlocked (Cert.KernelIdeal.KValue.H m c) (Cert.KernelIdeal.KValue.Cn m c)
    (Cert.KernelIdeal.KValue.Y m c), Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v26_eq]
  funext i
  rw [Cert.ReferenceIdeal.RefValue.result_apply, (hagree c).1, (hagree c).2.1, (hagree c).2.2]
  obtain ⟨hH, hC⟩ := Cert.Pre_finite_inputs.Finite.finite _ _ _ (hpre c)
  exact (CosineLoss.meanBlocked_eq_meanWhole _ _ _ hH hC).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
